-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384x1024 : Shape := ⟨2, ![16384, 1024]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S4096x16384 .f32) (main_arg1 : FVec F S16384x1024 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S4096x16384 : Shape := ⟨2, ![4096, 16384]⟩
abbrev S16384x1024 : Shape := ⟨2, ![16384, 1024]⟩
abbrev S4096x1024 : Shape := ⟨2, ![4096, 1024]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .f32⟩
  | .hbm, ⟨1, _⟩ => ⟨S16384x1024, .f32⟩
  | .hbm, ⟨2, _⟩ => ⟨S4096x1024, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x16384.size a
  hwx0_0 : ∀ i : grid0.Coords, EltTy.bits .f32 = 32 ∨ (Rect.block (s := S4096x16384) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x1024.size a
  hwx0_2 : ∀ i : grid0.Coords, EltTy.bits .f32 = 32 ∨ (Rect.block (s := S4096x1024) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x16384 : Shape := ⟨2, ![4096, 16384]⟩
abbrev S16384x1024 : Shape := ⟨2, ![16384, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x1024, .f32⟩
  | .hbm, ⟨2, _⟩ => ⟨S4096x1024, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x16384_S16384x1024_S4096x1024_1_0_0_1_n_n_wf : DotDims.WF S4096x16384 S16384x1024 S4096x1024 [1] [0] [0] [1] [] []

variable [Facts₀]

def dot_S4096x16384_S16384x1024_S4096x1024_1_0_0_1_n_n : DotDims S4096x16384 S16384x1024 S4096x1024 where
  lhsContracting := [1]
  rhsContracting := [0]
  lhsNonContracting := [0]
  rhsNonContracting := [1]
  lhsBatch := []
  rhsBatch := []
  wf := dot_S4096x16384_S16384x1024_S4096x1024_1_0_0_1_n_n_wf

class Facts : Prop extends Facts₀ where

variable [Facts]
-- ==== Proof.Pieces.lean ====
/-
  What one grid step leaves behind, as values.

  The body keeps a running [2048, 1024] block in a scratch buffer. At the first step of a row block's sweep it
  stores the zero block and then adds the step's product to it; at every later step it adds the step's product to
  what the step before left; at the last step it also copies the scratch to the output block. Each of these
  "found pieces" is one store through the whole buffer, so what is read back is the store's payload: the step
  function `k0_pay2 x h acc` (the product of the two input blocks added to `acc`), with `acc` the zero block
  `k0_pay1` at a first step. Stated for every float instance.
-/
import proofs.«116358_j59906203844970_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A first step of a sweep leaves `0 + x·h` in the scratch: the zero block is stored, read back, and the step's
    product added to it. -/
theorem scratch_first (c : Dev nD) (i : grid0.Coords) (a2 : Memref sig .tc .vmem S2048x512 .f32) (h2 : a2.IsWhole)
    (a3 : Memref sig .tc .vmem S512x1024 .f32) (h3 : a3.IsWhole) (a4 : Memref sig .tc .vmem S2048x1024 .f32) (h4 : a4.IsWhole)
    (a5 : Memref sig .tc .vmem S2048x1024 .f32) (h5 : a5.IsWhole) (hc0 : cond0_0 i) (hc1 : ¬cond0_1 i)
    (x0 : Vec F S2048x512 .f32) (x1 : Vec F S512x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x1024) hz, View.readCov_unit_zero (S := S2048x1024) _ hz]
  simp only [View.readAt_eq_ld, h2.read_unread, h3.read_unread, View.ld_unit_zero (S := S2048x512) hz,
    View.ld_unit_zero (S := S512x1024) hz]

/-- A middle step leaves `acc + x·h` in the scratch, `acc` what the step before left. -/
theorem scratch_middle (c : Dev nD) (i : grid0.Coords) (a2 : Memref sig .tc .vmem S2048x512 .f32) (h2 : a2.IsWhole)
    (a3 : Memref sig .tc .vmem S512x1024 .f32) (h3 : a3.IsWhole) (a4 : Memref sig .tc .vmem S2048x1024 .f32) (h4 : a4.IsWhole)
    (a5 : Memref sig .tc .vmem S2048x1024 .f32) (h5 : a5.IsWhole) (hc0 : ¬cond0_0 i) (hc1 : ¬cond0_1 i)
    (x0 : Vec F S2048x512 .f32) (x1 : Vec F S512x1024 .f32) (xs0 : Vec F S2048x1024 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S2048x512) hz,
    View.ld_unit_zero (S := S512x1024) hz, View.ld_unit_zero (S := S2048x1024) hz]

/-- The last step of a sweep leaves `acc + x·h` in the scratch too … -/
theorem scratch_last (c : Dev nD) (i : grid0.Coords) (a2 : Memref sig .tc .vmem S2048x512 .f32) (h2 : a2.IsWhole)
    (a3 : Memref sig .tc .vmem S512x1024 .f32) (h3 : a3.IsWhole) (a4 : Memref sig .tc .vmem S2048x1024 .f32) (h4 : a4.IsWhole)
    (a5 : Memref sig .tc .vmem S2048x1024 .f32) (h5 : a5.IsWhole) (hc0 : ¬cond0_0 i) (hc1 : cond0_1 i)
    (x0 : Vec F S2048x512 .f32) (x1 : Vec F S512x1024 .f32) (xs0 : Vec F S2048x1024 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S2048x512) hz,
    View.ld_unit_zero (S := S512x1024) hz, View.ld_unit_zero (S := S2048x1024) hz]

/-- … and copies it to the output block: the scratch is read back after the accumulating store and stored whole. -/
theorem out_last (c : Dev nD) (i : grid0.Coords) (a2 : Memref sig .tc .vmem S2048x512 .f32) (h2 : a2.IsWhole)
    (a3 : Memref sig .tc .vmem S512x1024 .f32) (h3 : a3.IsWhole) (a4 : Memref sig .tc .vmem S2048x1024 .f32) (h4 : a4.IsWhole)
    (a5 : Memref sig .tc .vmem S2048x1024 .f32) (h5 : a5.IsWhole) (hc0 : ¬cond0_0 i) (hc1 : cond0_1 i)
    (x0 : Vec F S2048x512 .f32) (x1 : Vec F S512x1024 .f32) (xs0 : Vec F S2048x1024 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S2048x1024) _ hz]
  simp only [View.readAt_eq_ld, h2.read_unread, h3.read_unread, h5.read_unread, View.ld_unit_zero (S := S2048x512) hz,
    View.ld_unit_zero (S := S512x1024) hz, View.ld_unit_zero (S := S2048x1024) hz]

end Cert.KernelIdeal.Pieces

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.Payload.lean ====
/-
  One grid step's arithmetic, read at an entry, on the extended reals.

  The step function takes the step's [2048, 512] block `x` of the left matrix, its [512, 1024] block `h` of the
  right one and the running [2048, 1024] block `acc`, and returns `acc + x·h`. The two casts to bf16 are the
  identity on extended reals and the matrix unit, started from the zero block, is the plain sum over the 512
  contraction indices, so entry (p, q) of the result is `acc (p, q) + Σ_k x (p, k) · h (k, q)`. The block a
  sweep starts from is zero at every entry.
-/
import proofs.«116358_j59906203844970_2_alg».proof.Proof.Gen.KernelIdeal.Skeleton
import proofs.«116358_j59906203844970_2_alg».proof.Proof.LibDot
import Idealize.ShloMosaic.Lib.Pipeline.Value
import Idealize.ShloMosaic.Lib.ValueIdx
import Idealize.ShloMosaic.PureOps.Ideal.Laws

noncomputable section

open scoped BigOperators

open Idealize.ShloMosaic Idealize.ShloMosaic.ValueIdx

namespace Cert.KernelIdeal.Payload

open Cert.KernelIdeal Cert.KernelIdeal.Gen

/-- The block a sweep starts from is zero everywhere. -/
theorem start_apply (y : S2048x1024.Idx) : k0_pay1 (F := Ideal) y = 0 := by
  unfold k0_pay1
  rw [shapeCast_self]
  exact Ideal.ofBits_zero_f32

/-- Entry (p, q) of `acc + x·h`. -/
theorem step_apply (x : Vec Ideal S2048x512 .f32) (h : Vec Ideal S512x1024 .f32) (acc : Vec Ideal S2048x1024 .f32)
    (p : Fin 2048) (q : Fin 1024) :
    k0_pay2 x h acc (ix2 p q) = acc (ix2 p q) + ∑ k : Fin 512, x (ix2 p k) * h (ix2 k q) := by
  unfold k0_pay2
  rw [shapeCast_self]
  refine (addf_apply _ _ _).trans ?_
  refine congrArg (acc (ix2 p q) + ·) ?_
  refine (Ideal.matmul_constant_zero_apply _ none _ _ _).trans ?_
  exact PlainDot.sum_eq _ rfl rfl rfl rfl rfl rfl _ _ p q

end Cert.KernelIdeal.Payload

end
-- ==== Proof.Blocks.lean ====
/-
  The input blocks of a grid step, read at an entry.

  Grid point `t` of the 2 × 32 grid is the pair (row block `t / 32`, contraction block `t % 32`). The left
  matrix's window shows rows `2048·(t / 32) …` and columns `512·(t % 32) …` of the [4096, 16384] argument, the right
  matrix's window rows `512·(t % 32) …` and all 1024 columns of the [16384, 1024] argument: an entry of a block is
  the argument's entry at block index × block size + the coordinate inside the block.
-/
import proofs.«116358_j59906203844970_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The left window's block index at point `t` is (t / 32, t % 32). -/
theorem index_left : ∀ t : Fin cfg0.N, win0_0.index t 0 = t.val / 32 ∧ win0_0.index t 1 = t.val % 32 :=
  (by decide +kernel : ∀ t : Fin grid0.N, win0_0.index t 0 = t.val / 32 ∧ win0_0.index t 1 = t.val % 32)

/-- The right window's block index at point `t` is (t % 32, 0). -/
theorem index_right : ∀ t : Fin cfg0.N, win0_1.index t 0 = t.val % 32 ∧ win0_1.index t 1 = 0 :=
  (by decide +kernel : ∀ t : Fin grid0.N, win0_1.index t 0 = t.val % 32 ∧ win0_1.index t 1 = 0)

/-- The output window's block index at point `t` is (t / 32, 0). -/
theorem index_out : ∀ t : Fin cfg0.N, win0_2.index t 0 = t.val / 32 ∧ win0_2.index t 1 = 0 :=
  (by decide +kernel : ∀ t : Fin grid0.N, win0_2.index t 0 = t.val / 32 ∧ win0_2.index t 1 = 0)

/-- Entry (p, k) of the left block at point `t` is entry (2048·(t / 32) + p, 512·(t % 32) + k) of the left argument. -/
theorem left_apply (c : Dev nD) (t : Fin cfg0.N) (p : Fin 2048) (k : Fin 512) (r : Fin 4096) (j : Fin 16384)
    (hr : r.val = 2048 * (t.val / 32) + p.val) (hj : j.val = 512 * (t.val % 32) + k.val) :
    (iblk m c 0 t : Vec F S2048x512 .f32) (ix2 p k) = m ((c : Thread nD τ).loc main_arg0) (ix2 r j) := by
  obtain ⟨h0, h1⟩ := index_left t
  unfold iblk
  rw [View.read_apply]
  show V m c main_arg0 _ = m (c.tc.loc main_arg0) _
  unfold V
  congr 1
  funext a
  apply Fin.ext
  match a with
  | ⟨0, _⟩ => show win0_0.index t 0 * 2048 + 1 * p.val = r.val; rw [h0]; omega
  | ⟨1, _⟩ => show win0_0.index t 1 * 512 + 1 * k.val = j.val; rw [h1]; omega

/-- Entry (k, q) of the right block at point `t` is entry (512·(t % 32) + k, q) of the right argument. -/
theorem right_apply (c : Dev nD) (t : Fin cfg0.N) (k : Fin 512) (q : Fin 1024) (j : Fin 16384)
    (hj : j.val = 512 * (t.val % 32) + k.val) :
    (iblk m c 1 t : Vec F S512x1024 .f32) (ix2 k q) = m ((c : Thread nD τ).loc main_arg1) (ix2 j q) := by
  obtain ⟨h0, h1⟩ := index_right t
  unfold iblk
  rw [View.read_apply]
  show V m c main_arg1 _ = m (c.tc.loc main_arg1) _
  unfold V
  congr 1
  funext a
  apply Fin.ext
  match a with
  | ⟨0, _⟩ => show win0_1.index t 0 * 512 + 1 * k.val = j.val; rw [h0]; omega
  | ⟨1, _⟩ => show win0_1.index t 1 * 1024 + 1 * q.val = q.val; rw [h1]; omega

end Cert.KernelIdeal.Blocks

end
-- ==== Proof.Spec.lean ====
/-
  The product of a [4096, 16384] matrix and a [16384, 1024] matrix on the extended reals, entry by entry, and the
  one law that joins a blocked evaluation to it: a sum over the B·K contraction indices is the sum, over the B
  contraction blocks, of the sums over the K indices inside a block. Addition of extended reals is commutative
  and associative, so the regrouping asks nothing of the summands (no finiteness).
-/
import Idealize.ShloMosaic.PureOps.Ideal
import Idealize.ShloMosaic.Lib.ValueIdx

noncomputable section

open scoped BigOperators

open Idealize.ShloMosaic Idealize.ShloMosaic.ValueIdx

namespace Cert.MatProd

/-- The summand of entry (r, q) at contraction index `k`. -/
def term (X : (⟨2, ![4096, 16384]⟩ : Shape).Idx → EReal) (H : (⟨2, ![16384, 1024]⟩ : Shape).Idx → EReal)
    (r : Fin 4096) (q : Fin 1024) (k : Fin 16384) : EReal :=
  X (ix2 r k) * H (ix2 k q)

/-- Entry (r, q) of the product: the sum over the 16384 contraction indices. -/
def entry (X : (⟨2, ![4096, 16384]⟩ : Shape).Idx → EReal) (H : (⟨2, ![16384, 1024]⟩ : Shape).Idx → EReal)
    (r : Fin 4096) (q : Fin 1024) : EReal :=
  ∑ k : Fin 16384, term X H r q k

/-- The product as a [4096, 1024] array. -/
def prod (X : (⟨2, ![4096, 16384]⟩ : Shape).Idx → EReal) (H : (⟨2, ![16384, 1024]⟩ : Shape).Idx → EReal) :
    (⟨2, ![4096, 1024]⟩ : Shape).Idx → EReal :=
  fun i => entry X H (i 0) (i 1)

/-- A sum over `B·K` indices, block by block: if `g b j` is the summand at index `K·b + j`, the double sum of `g`
    over the blocks and the positions inside a block is the whole sum. -/
theorem sum_blocks {β : Type*} [AddCommMonoid β] {B K : ℕ} (f : Fin (B * K) → β) (g : Fin B → Fin K → β)
    (hfg : ∀ (b : Fin B) (j : Fin K) (k : Fin (B * K)), k.val = K * b.val + j.val → g b j = f k) :
    ∑ b : Fin B, ∑ j : Fin K, g b j = ∑ k : Fin (B * K), f k := by
  rw [← Equiv.sum_comp finProdFinEquiv f, Fintype.sum_prod_type]
  refine Finset.sum_congr rfl fun b _ => Finset.sum_congr rfl fun j _ => ?_
  exact hfg b j _ (Nat.add_comm _ _)

end Cert.MatProd

end
-- ==== Proof.Fold.lean ====
/-
  The running block after every grid step, and the block a sweep hands back.

  For a fixed row block, the 32 grid steps of its sweep each add one contraction block's partial product to the
  running [2048, 1024] block, which starts from zero. So after step `t` the running block holds, at entry (p, q),
  the sum of the partial products of the contraction blocks `0 … t % 32`; at the sweep's last step that is the sum
  over all 32 blocks, which regrouped is the sum over all 16384 contraction indices: the entry
  (2048·(t / 32) + p, q) of the product of the two arguments. That step also copies the running block to the output
  block, which the pipeline then writes back.
-/
import proofs.«116358_j59906203844970_2_alg».proof.Proof.Gen.KernelIdeal.Value
import proofs.«116358_j59906203844970_2_alg».proof.Proof.Pieces
import proofs.«116358_j59906203844970_2_alg».proof.Proof.Payload
import proofs.«116358_j59906203844970_2_alg».proof.Proof.Blocks
import proofs.«116358_j59906203844970_2_alg».proof.Proof.Spec
import Idealize.ShloMosaic.Lib.Pipeline.Value

noncomputable section

open scoped BigOperators

open Idealize.ShloMosaic Idealize.ShloMosaic.TcCoe Idealize.SL.Sem Idealize.ShloMosaic.ValueIdx

namespace Cert.KernelIdeal.Fold

open Cert.KernelIdeal Cert.KernelIdeal.Gen

variable (m : (ℓ : Loc nD τ sig) → Buf (Elt Ideal) ℓ)

/-- The summand, at position `k` inside the contraction block, of entry `y` of one step's partial product. -/
def blockTerm (x : Vec Ideal S2048x512 .f32) (h : Vec Ideal S512x1024 .f32) (y : S2048x1024.Idx) (k : Fin 512) : EReal :=
  x (ix2 (y 0) k) * h (ix2 k (y 1))

/-- One contraction block's partial product at entry `y` of the running block. -/
def blockDot (x : Vec Ideal S2048x512 .f32) (h : Vec Ideal S512x1024 .f32) (y : S2048x1024.Idx) : EReal :=
  ∑ k : Fin 512, blockTerm x h y k

/-- A step adds its partial product to what it is given. -/
theorem step_entry (x : Vec Ideal S2048x512 .f32) (h : Vec Ideal S512x1024 .f32) (acc : Vec Ideal S2048x1024 .f32)
    (y : S2048x1024.Idx) : k0_pay2 x h acc y = acc y + blockDot x h y := by
  obtain ⟨p, q, rfl⟩ : ∃ (p : Fin 2048) (q : Fin 1024), y = ix2 p q := ⟨y 0, y 1, eq_ix2 y⟩
  exact Payload.step_apply x h acc p q

/-- What grid step `n` adds at entry `y` (zero past the grid, where nothing is ever asked). -/
def addend (c : Dev nD) (n : ℕ) (y : S2048x1024.Idx) : EReal :=
  if hn : n < cfg0.N then blockDot (iblk m c 0 ⟨n, hn⟩) (iblk m c 1 ⟨n, hn⟩) y else 0

/-- THE RUNNING BLOCK after step `t`: the partial products of the sweep's steps so far, summed. -/
theorem running (c : Dev nD) (t : Fin cfg0.N) (y : S2048x1024.Idx) :
    (outsAt0 m c t.val t.isLt).2 y = ∑ s ∈ Finset.range (t.val % 32 + 1), addend m c (32 * (t.val / 32) + s) y := by
  have hN : cfg0.N = 64 := N_0
  have ht := t.isLt
  rw [Value.soutsAt0_0_eq m c t]
  refine (Pipeline.accAt_add_apply (ι := S2048x1024.Idx) (β := EReal) _ _ (fun _ => 0) (addend m c)
    (32 * (t.val / 32)) 31 ?_ ?_ (t.val % 32) (by omega) _ y).trans (zero_add _)
  · intro hb y
    have h0 : (32 * (t.val / 32)) % 32 = 0 := Nat.mul_mod_right _ _
    have h1 : ¬(32 * (t.val / 32)) % 32 = 31 := by omega
    show Value.scAt0_0 m c (32 * (t.val / 32)) hb _ y = 0 + addend m c (32 * (t.val / 32)) y
    unfold Value.scAt0_0
    rw [dif_pos h0, dif_neg h1, Pieces.scratch_first, step_entry, Payload.start_apply]
    unfold addend
    rw [dif_pos hb]
  · intro n hn acc y hbn hne
    have h0 : ¬n % 32 = 0 := by omega
    show Value.scAt0_0 m c n hn acc y = acc y + addend m c n y
    unfold Value.scAt0_0
    rw [dif_neg h0]
    unfold addend
    rw [dif_pos hn]
    by_cases h1 : n % 32 = 31
    · rw [dif_pos h1, Pieces.scratch_last, step_entry]
    · rw [dif_neg h1, Pieces.scratch_middle, step_entry]

/-- At a sweep's last step the output block is the running block. -/
theorem out_eq_running (c : Dev nD) (t : Fin cfg0.N) (h31 : t.val % 32 = 31) :
    (outsAt0 m c t.val t.isLt).1 = (outsAt0 m c t.val t.isLt).2 := by
  have h0 : ¬t.val % 32 = 0 := by omega
  rw [outsAt0_C m c t h0 h31]
  dsimp only
  rw [Pieces.out_last, Pieces.scratch_last]

/-- THE WHOLE SWEEP: the 32 partial products of row block `t / 32`, summed, are the product's entry. -/
theorem sweep (c : Dev nD) (t : Fin cfg0.N) (y : S2048x1024.Idx) (r : Fin 4096)
    (hr : r.val = 2048 * (t.val / 32) + (y 0).val) :
    ∑ s ∈ Finset.range 32, addend m c (32 * (t.val / 32) + s) y
      = MatProd.entry (m ((c : Thread nD τ).loc main_arg0)) (m ((c : Thread nD τ).loc main_arg1)) r (y 1) := by
  have hN : cfg0.N = 64 := N_0
  have ht := t.isLt
  have hlt : ∀ s : Fin 32, 32 * (t.val / 32) + s.val < cfg0.N := fun s => by have := s.isLt; omega
  rw [Finset.sum_range]
  unfold MatProd.entry
  refine (Finset.sum_congr rfl fun s _ => ?_).trans (MatProd.sum_blocks (B := 32) (K := 512)
    (MatProd.term (m ((c : Thread nD τ).loc main_arg0)) (m ((c : Thread nD τ).loc main_arg1)) r (y 1))
    (fun s j => blockTerm (iblk m c 0 ⟨32 * (t.val / 32) + s.val, hlt s⟩) (iblk m c 1 ⟨32 * (t.val / 32) + s.val, hlt s⟩) y j) ?_)
  · unfold addend
    rw [dif_pos (hlt s)]
    rfl
  · intro s j k hk
    have hs := s.isLt
    have hk' : k.val = 512 * s.val + j.val := hk
    exact congrArg₂ (fun a b : EReal => a * b)
      (Blocks.left_apply m c ⟨32 * (t.val / 32) + s.val, hlt s⟩ (y 0) j r k
        (by show r.val = 2048 * ((32 * (t.val / 32) + s.val) / 32) + (y 0).val; omega)
        (by show k.val = 512 * ((32 * (t.val / 32) + s.val) % 32) + j.val; omega))
      (Blocks.right_apply m c ⟨32 * (t.val / 32) + s.val, hlt s⟩ j (y 1) k
        (by show k.val = 512 * ((32 * (t.val / 32) + s.val) % 32) + j.val; omega))

end Cert.KernelIdeal.Fold

end
-- ==== Proof.Result.lean ====
/-
  The result array after the run.

  The output window is written back at the last step of each row block's sweep (grid points 31 and 63), and what
  is written back there is the running block, whose entry (p, q) is the product's entry (2048·(t / 32) + p, q):
  the block of the product that the window's rectangle at that point names. The two blocks written back cover the
  [4096, 1024] array (row `r` lies in the block of the sweep `r / 2048`), so the array ends holding the product of
  the two arguments, which are left unchanged.
-/
import proofs.«116358_j59906203844970_2_alg».proof.Proof.Fold

noncomputable section

open scoped BigOperators

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The product of the two arguments as the launch finds them, as contents of the result array. -/
abbrev product (c : Dev nD) : Buf (Elt Ideal) ((c : Thread nD τ).loc main_v0) :=
  MatProd.prod (m ((c : Thread nD τ).loc main_arg0)) (m ((c : Thread nD τ).loc main_arg1))

set_option maxRecDepth 65536 in
/-- What a writing-back point writes back is its block of the product. -/
theorem flushed_eq (c : Dev nD) (t : Fin cfg0.N) (hf : (cfg0.win 2).flush t = true) :
    (dats m 0 c).flushed 2 t = ((cfg0.win 2).blk t).view.read (Elt Ideal) (product m c) := by
  have h31 : t.val % 32 = 31 := (flush0_2 t).mp hf
  show (cfg0.win 2).cut (grid0.coords t) ((dats m 0 c).after 2 t) = _
  rw [after0_2, Fold.out_eq_running m c t h31]
  obtain ⟨i0, i1⟩ := Blocks.index_out t
  funext y
  rw [View.read_apply]
  show (outsAt0 m c t.val t.isLt).2 y = product m c (((cfg0.win 2).blk t).view.emb y)
  have hy0 : (y 0).val < 2048 := (y 0).isLt
  have e1 : ((cfg0.win 2).blk t).view.emb y 1 = y 1 := Fin.ext (by
    show win0_2.index t 1 * 1024 + 1 * (y 1).val = (y 1).val; rw [i1]; omega)
  have e0 : (((cfg0.win 2).blk t).view.emb y 0).val = 2048 * (t.val / 32) + (y 0).val := by
    show win0_2.index t 0 * 2048 + 1 * (y 0).val = _; rw [i0]; omega
  rw [Fold.running m c t y, h31]
  unfold product MatProd.prod
  rw [e1]
  exact Fold.sweep m c t y _ e0

/-- An index of the array is in point `t`'s block iff each coordinate is in the block's range on its axis. -/
theorem mem_blk (t : Fin cfg0.N) (i : S4096x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v0).slice (win0_2.rect t)).set ↔ _
  rw [View.set_slice_whole, Rect.mem_set_unit]
  exact Iff.rfl

/-- Every entry of the array lies in the block written back at the end of its row block's sweep. -/
theorem cover (i : S4096x1024.Idx) :
    ∃ t : Fin cfg0.N, (cfg0.win 2).flush t = true ∧ i ∈ ((cfg0.win 2).blk t).view.set := by
  have hN : cfg0.N = 64 := N_0
  have hi0 : (i 0).val < 4096 := (i 0).isLt
  have hi1 : (i 1).val < 1024 := (i 1).isLt
  have hlt : 32 * ((i 0).val / 2048) + 31 < cfg0.N := by omega
  obtain ⟨i0, i1⟩ := Blocks.index_out ⟨32 * ((i 0).val / 2048) + 31, hlt⟩
  have i0' : win0_2.index ⟨32 * ((i 0).val / 2048) + 31, hlt⟩ 0 = (32 * ((i 0).val / 2048) + 31) / 32 := i0
  refine ⟨⟨32 * ((i 0).val / 2048) + 31, hlt⟩, (flush0_2 _).mpr (by show (32 * ((i 0).val / 2048) + 31) % 32 = 31; omega), ?_⟩
  rw [mem_blk]
  intro a
  match a with
  | ⟨0, _⟩ =>
    show win0_2.index ⟨32 * ((i 0).val / 2048) + 31, hlt⟩ 0 * 2048 ≤ (i 0).val ∧ (i 0).val < win0_2.index ⟨32 * ((i 0).val / 2048) + 31, hlt⟩ 0 * 2048 + 2048
    rw [i0']; omega
  | ⟨1, _⟩ =>
    show win0_2.index ⟨32 * ((i 0).val / 2048) + 31, hlt⟩ 1 * 1024 ≤ (i 1).val ∧ (i 1).val < win0_2.index ⟨32 * ((i 0).val / 2048) + 31, hlt⟩ 1 * 1024 + 1024
    rw [i1]; omega

/-- THE ARRAY after the run is the product. -/
theorem final (c : Dev nD) : (dats m 0 c).arrAt 2 cfg0.N = product m c :=
  (dats m 0 c).arrAt_eq_of_cover 2 (product m c) (flushed_eq m c) cover

/-- The run, read: the result array at the product of the arguments, the arguments unchanged. -/
theorem run : θ_run defs (onTc (τ := τ) (main (F := Ideal))) ⟨m, fun _ => 0, ρ⟩ fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.Reference.lean ====
/-
  The reference's one operation is the product.

  The host's `dot_general` contracts the left operand's second axis with the right operand's first; on the extended
  reals its entry (r, q) is the sum over the 16384 contraction indices of `X (r, k) · H (k, q)`.
-/
import proofs.«116358_j59906203844970_2_alg».proof.Proof.Gen.ReferenceIdeal.Read
import proofs.«116358_j59906203844970_2_alg».proof.Proof.Spec

noncomputable section

open scoped BigOperators

open Idealize.ShloMosaic Idealize.ShloMosaic.ValueIdx

namespace Cert.ReferenceIdeal.Product

open Cert.ReferenceIdeal

/-- The reference's result, as a function of its two arguments, is their product. -/
theorem dot_eq (X : (⟨S4096x16384, .f32⟩ : BufTy).Contents (Elt Ideal)) (H : (⟨S16384x1024, .f32⟩ : BufTy).Contents (Elt Ideal)) :
    Read.val_main_v0 (F := Ideal) X H = MatProd.prod X H := by
  funext i
  rw [Read.val_main_v0_apply]
  unfold MatProd.prod MatProd.entry
  have el : ∀ k : Fin 16384, Read.lidx_main_v0 i k = ix2 (i 0) k := fun k => funext fun a => by
    match a with
    | ⟨0, _⟩ => rfl
    | ⟨1, _⟩ => rfl
  have er : ∀ k : Fin 16384, Read.ridx_main_v0 i k = ix2 k (i 1) := fun k => funext fun a => by
    match a with
    | ⟨0, _⟩ => rfl
    | ⟨1, _⟩ => rfl
  refine Finset.sum_congr rfl fun k _ => ?_
  rw [el, er]
  unfold MatProd.term
  rfl

end Cert.ReferenceIdeal.Product

end
-- ==== Proof.lean ====
/-
  A blocked matrix product against the plain one.

  The kernel computes `x @ hashProj` for `x` [4096, 16384] and `hashProj` [16384, 1024] on a 2 × 32 grid: for each
  of the two row blocks of 2048 rows it sweeps the 32 contraction blocks of 512 columns, adding each block's partial
  product (its operands rounded to bf16, which on the extended reals is the identity) into a running [2048, 1024]
  block that starts from zero, and hands the running block back after the last contraction block. The reference
  is the one product `jnp.matmul`. On the extended reals both are, at entry (r, q), the sum over the 16384
  contraction indices of `x (r, k) · hashProj (k, q)`: the kernel's sum is that sum grouped into 32 runs of 512, and
  addition of extended reals is commutative and associative, so the grouping changes nothing and the finiteness
  of the inputs is never used.

  The modules: `Spec` (the product and the regrouping law), `Pieces` (what one grid step leaves, as values),
  `Payload` (one step's arithmetic at an entry), `LibDot` (a plain product's contraction sum at an entry),
  `Blocks` (the input blocks at an entry), `Fold` (the running block after every step), `Result` (the result array
  after the run), `Reference` (the reference's operation is the product). The three frames are the generated
  ones (the reference's is its generated run with the result dropped); the idealization rewrote nothing.
-/
import proofs.«116358_j59906203844970_2_alg».proof.Defs
import proofs.«116358_j59906203844970_2_alg».proof.Proof.Gen.Kernel
import proofs.«116358_j59906203844970_2_alg».proof.Proof.Gen.Kernel.Skeleton
import proofs.«116358_j59906203844970_2_alg».proof.Proof.Gen.Kernel.Launch
import proofs.«116358_j59906203844970_2_alg».proof.Proof.Gen.Kernel.Points
import proofs.«116358_j59906203844970_2_alg».proof.Proof.Gen.Kernel.Frame
import proofs.«116358_j59906203844970_2_alg».proof.Proof.Gen.KernelIdeal
import proofs.«116358_j59906203844970_2_alg».proof.Proof.Gen.KernelIdeal.Skeleton
import proofs.«116358_j59906203844970_2_alg».proof.Proof.Gen.KernelIdeal.Launch
import proofs.«116358_j59906203844970_2_alg».proof.Proof.Gen.KernelIdeal.Points
import proofs.«116358_j59906203844970_2_alg».proof.Proof.Gen.KernelIdeal.Frame
import proofs.«116358_j59906203844970_2_alg».proof.Proof.Gen.KernelIdeal.Value
import proofs.«116358_j59906203844970_2_alg».proof.Proof.Gen.ReferenceIdeal
import proofs.«116358_j59906203844970_2_alg».proof.Proof.Gen.ReferenceIdeal.Run
import proofs.«116358_j59906203844970_2_alg».proof.Proof.Gen.ReferenceIdeal.Read
import proofs.«116358_j59906203844970_2_alg».proof.Proof.Gen.Pre_finite_inputs
import proofs.«116358_j59906203844970_2_alg».proof.Proof.Result
import proofs.«116358_j59906203844970_2_alg».proof.Proof.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the product of arguments that agree. -/
theorem algebraic : Cert.algebraic_KernelIdeal_ReferenceIdeal := by
  intro m ρ m' ρ' _ hagree
  refine ⟨fun c => Cert.KernelIdeal.Result.product m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Product.dot_eq _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
